-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S64x4096x128 : Shape := ⟨3, ![64, 4096, 128]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S64x4096x128 : S_.BroadcastsInDim S64x4096x128 (![] : Fin 0 → Fin S64x4096x128.rank)
  reducesTo_S64x4096x128_S_d0_1_2 : S64x4096x128.ReducesTo [0, 1, 2] S_

variable [Facts]

def fn {F : FTy → Type} [FloatOps F] (main_arg0 : FVec F S64x32x128 .f32) (main_arg1 : FVec F S64x4096x128 .f32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S64x4096x128 .f32 := Host.absf main_arg1
  let main_cst_0 : FVec F S_ .f32 := constant S_ .f32 0x7F800000#32
  let main_v5 : FVec F S64x4096x128 .f32 := broadcastInDim S64x4096x128 ![] bcast_S_S64x4096x128 main_cst_0
  let main_v6 : IVec S64x4096x128 1 := cmpf .olt main_v4 main_v5
  let main_c_1 : IVec S_ 1 := constantI S_ 1 1#1
  let main_v7 : IVec S_ 1 := (fun x v => Host.reduce IntOp.andi x v reducesTo_S64x4096x128_S_d0_1_2 h_S_) main_v6 main_c_1
  let main_v8 : IVec S_ 1 := andi main_v3 main_v7
  main_v8
-- ==== Kernel.lean ====
abbrev S64x32x128 : Shape := ⟨3, ![64, 32, 128]⟩
abbrev S64x4096x128 : Shape := ⟨3, ![64, 4096, 128]⟩
abbrev S64x128 : Shape := ⟨2, ![64, 128]⟩
abbrev S8x32x128 : Shape := ⟨3, ![8, 32, 128]⟩
abbrev S8x2048x128 : Shape := ⟨3, ![8, 2048, 128]⟩
abbrev S8x128 : Shape := ⟨2, ![8, 128]⟩
abbrev S8x32 : Shape := ⟨2, ![8, 32]⟩
abbrev S8x32x2048 : Shape := ⟨3, ![8, 32, 2048]⟩
abbrev S8 : Shape := ⟨1, ![8]⟩
abbrev S8x1 : Shape := ⟨2, ![8, 1]⟩
abbrev S64x1 : Shape := ⟨2, ![64, 1]⟩
abbrev S64 : Shape := ⟨1, ![64]⟩

abbrev nBuf : Space → Nat
  | .hbm => 5
  | .vmem => 7
  | .smem => 0
  | _ => 0

abbrev bufTy : (tb : Table) → Fin (tcTables nBuf tb) → BufTy
  | .hbm, ⟨0, _⟩ => ⟨S64x32x128, .f32⟩
  | .hbm, ⟨1, _⟩ => ⟨S64x4096x128, .f32⟩
  | .hbm, ⟨2, _⟩ => ⟨S64x128, .f32⟩
  | .hbm, ⟨3, _⟩ => ⟨S64x1, .f32⟩
  | .hbm, ⟨4, _⟩ => ⟨S64, .f32⟩
  | .local _ .vmem, ⟨0, _⟩ => ⟨S8x32x128, .f32⟩
  | .local _ .vmem, ⟨1, _⟩ => ⟨S8x2048x128, .f32⟩
  | .local _ .vmem, ⟨2, _⟩ => ⟨S8x2048x128, .f32⟩
  | .local _ .vmem, ⟨3, _⟩ => ⟨S8x128, .f32⟩
  | .local _ .vmem, ⟨4, _⟩ => ⟨S8x128, .f32⟩
  | .local _ .vmem, ⟨5, _⟩ => ⟨S8x32, .f32⟩
  | .local _ .vmem, ⟨6, _⟩ => ⟨S8x32x128, .bf16⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S8x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S8x32x128_S8x32x128_0_0_0 : ∀ a, (![0, 0, 0] : Fin 3 → Nat) a + S8x32x128.size a ≤ S8x32x128.size a
  h_S8x32x128 : 0 < S8x32x128.numel
  bitsLt_bf16_f32 : FTy.bits .bf16 < FTy.bits .f32
  shapeCasts_S8x32x128_S8x32x128 : S8x32x128.ShapeCasts S8x32x128
  packedbf16_S8x32x128_S8x32x128_0_0_0 : (Rect.unit (s := S8x32x128) ![0, 0, 0] S8x32x128.size inb_S8x32x128_S8x32x128_0_0_0).PackedRows (EltTy.packing .bf16)
  inb_S8x2048x128_S8x2048x128_0_0_0 : ∀ a, (![0, 0, 0] : Fin 3 → Nat) a + S8x2048x128.size a ≤ S8x2048x128.size a
  h_S8x2048x128 : 0 < S8x2048x128.numel
  reduces_S8x32x2048_S8x32 : S8x32x2048.Reduces [2] S8x32
  reduces_S8x32_S8 : S8x32.Reduces [1] S8
  shapeCasts_S8_S8x1 : S8.ShapeCasts S8x1
  shapeCasts_S8x1_S8x1 : S8x1.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S64x128_S64x1_0_0 : S64x128.Slices ![0, 0] S64x1
  shapeCasts_S64x1_S64 : S64x1.ShapeCasts S64
  dot_S8x32x128_S8x2048x128_S8x32x2048_2_2_1_1_0_0_wf : DotDims.WF S8x32x128 S8x2048x128 S8x32x2048 [2] [2] [1] [1] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x32x128.size a ≤ S64x32x128.size a
  hwx0_0 : ∀ i : grid0.Coords, EltTy.bits .f32 = 32 ∨ (Rect.block (s := S64x32x128) S8x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048x128.size a ≤ S64x4096x128.size a
  hwx0_1 : ∀ i : grid0.Coords, EltTy.bits .f32 = 32 ∨ (Rect.block (s := S64x4096x128) S8x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

def dot_S8x32x128_S8x2048x128_S8x32x2048_2_2_1_1_0_0 : DotDims S8x32x128 S8x2048x128 S8x32x2048 where
  lhsContracting := [2]
  rhsContracting := [2]
  lhsNonContracting := [1]
  rhsNonContracting := [1]
  lhsBatch := [0]
  rhsBatch := [0]
  wf := dot_S8x32x128_S8x2048x128_S8x32x2048_2_2_1_1_0_0_wf

abbrev win0_0 : Pipeline.Window sig grid0 :=
  Pipeline.Window.ofSpec (Memref.whole main_arg0) S8x32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x32x128 : Shape := ⟨3, ![64, 32, 128]⟩
abbrev S64x4096x128 : Shape := ⟨3, ![64, 4096, 128]⟩
abbrev S64x32x4096 : Shape := ⟨3, ![64, 32, 4096]⟩
abbrev S_ : Shape := ⟨0, ![]⟩
abbrev S64x32 : Shape := ⟨2, ![64, 32]⟩
abbrev S64 : Shape := ⟨1, ![64]⟩

abbrev nBuf : Space → Nat
  | .hbm => 7
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S64x4096x128, .f32⟩
  | .hbm, ⟨2, _⟩ => ⟨S64x32x4096, .f32⟩
  | .hbm, ⟨3, _⟩ => ⟨S_, .f32⟩
  | .hbm, ⟨4, _⟩ => ⟨S64x32, .f32⟩
  | .hbm, ⟨5, _⟩ => ⟨S_, .f32⟩
  | .hbm, ⟨6, _⟩ => ⟨S64, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S64x32x4096_S64x32_d2 : S64x32x4096.ReducesTo [2] S64x32
  h_S_ : 0 < S_.numel
  reducesTo_S64x32_S64_d1 : S64x32.ReducesTo [1] S64
  dot_S64x32x128_S64x4096x128_S64x32x4096_2_2_1_1_0_0_wf : DotDims.WF S64x32x128 S64x4096x128 S64x32x4096 [2] [2] [1] [1] [0] [0]

variable [Facts₀]

def dot_S64x32x128_S64x4096x128_S64x32x4096_2_2_1_1_0_0 : DotDims S64x32x128 S64x4096x128 S64x32x4096 where
  lhsContracting := [2]
  rhsContracting := [2]
  lhsNonContracting := [1]
  rhsNonContracting := [1]
  lhsBatch := [0]
  rhsBatch := [0]
  wf := dot_S64x32x128_S64x4096x128_S64x32x4096_2_2_1_1_0_0_wf

class Facts : Prop extends Facts₀ where

variable [Facts]
-- ==== Proof.LibTileMax.lean ====
/-
  A maximum taken tile by tile.

  A running maximum over a family of values may be taken in pieces: start from any value `b`, fold the maximum over a
  first part of the family, then fold it over a second part, and take the larger of the results.  When the two parts
  together reach every member of the family, this is the maximum of the whole family folded from `b` in one go.  Only the
  order structure is used (the maximum is commutative, associative and idempotent), so the statement holds in every
  linear order — in particular on the extended reals, where `b` may be the bottom element.
-/
import Mathlib.Data.Finset.Fold
import Mathlib.Data.Fintype.Basic
import Mathlib.Order.Lattice

namespace Cert.LibTileMax

variable {α : Type*} [LinearOrder α]

/-- Two elements of a linear order with the same upper bounds are equal. -/
theorem eq_of_same_upper_bounds {x y : α} (h : ∀ c, x ≤ c ↔ y ≤ c) : x = y :=
  le_antisymm ((h y).mpr le_rfl) ((h x).mp le_rfl)

/-- THE TWO-TILE MAXIMUM.  The family `f` over `ι`, folded with `max` from `b`, is what a running maximum holds after
    two steps: first `max b` of the fold over the part `e₀` reaches, then the larger of that and the fold over the part
    `e₁` reaches — provided every index is reached by one of the two.  (The parts may overlap, and `b` is any value: the
    maximum is idempotent.) -/
theorem fold_max_two_tiles {ι κ₀ κ₁ : Type*} [Fintype ι] [Fintype κ₀] [Fintype κ₁] (b : α) (f : ι → α)
    (e₀ : κ₀ → ι) (e₁ : κ₁ → ι) (hcov : ∀ i, (∃ k, e₀ k = i) ∨ (∃ k, e₁ k = i)) :
    max (max b (Finset.univ.fold max b (fun k => f (e₀ k)))) (Finset.univ.fold max b (fun k => f (e₁ k)))
      = Finset.univ.fold max b f := by
  refine eq_of_same_upper_bounds fun c => ?_
  simp only [max_le_iff, Finset.fold_max_le, Finset.mem_univ, true_implies]
  constructor
  · rintro ⟨⟨hb, -, h0⟩, -, h1⟩
    refine ⟨hb, fun i => ?_⟩
    rcases hcov i with ⟨k, rfl⟩ | ⟨k, rfl⟩
    · exact h0 k
    · exact h1 k
  · rintro ⟨hb, hf⟩
    exact ⟨⟨hb, hb, fun k => hf _⟩, hb, fun k => hf _⟩

end Cert.LibTileMax
-- ==== Proof.Spec.lean ====
/-
  The late-interaction score ("MaxSim") as one function of the two argument arrays.

  For a batch entry `b`, a query token `q` and a document token `l` the similarity is the inner product
  `score b q l = Σ_k Q(b,q,k) · D(b,l,k)` over the 128 features.  The result for `b` is the sum over the 32 query
  tokens of the maximum of `score b q l` over the 4096 document tokens, the maximum folded from the value `−∞`.

  The document axis is also read as two tiles of 2048 tokens laid end to end: token `l` of tile `j` is token
  `2048·j + l` of the document.  A running maximum that starts at `−∞`, takes in the first tile and then the second
  ends at the maximum over the whole document (`maxSim_two_tiles`).
-/
import Idealize.ShloMosaic.PureOps.Ideal.Laws
import Idealize.ShloMosaic.Lib.ValueIdx
import proofs.«116367_j15006615733213_2_alg».proof.Proof.LibTileMax

noncomputable section

open scoped BigOperators

namespace MaxSim

open Idealize.ShloMosaic Idealize.ShloMosaic.ValueIdx

/-- The value every running maximum starts from: the single-precision word of `−∞`, kept as a word. -/
abbrev negInf : EReal := Ideal.ofBits .f32 0xFF800000#32

/-- The query array's and the document array's shapes. -/
abbrev SQ : Shape := ⟨3, ![64, 32, 128]⟩
abbrev SD : Shape := ⟨3, ![64, 4096, 128]⟩

/-- The similarity of query token `q` and document token `l` of batch entry `b`: their inner product. -/
def score (Q : SQ.Idx → EReal) (D : SD.Idx → EReal) (b : Fin 64) (q : Fin 32) (l : Fin 4096) : EReal :=
  ∑ k : Fin 128, Q (ix3 b q k) * D (ix3 b l k)

/-- THE RESULT for batch entry `b`: over the query tokens, the sum of the best similarity over the document. -/
def maxSim (Q : SQ.Idx → EReal) (D : SD.Idx → EReal) (b : Fin 64) : EReal :=
  ∑ q : Fin 32, Finset.univ.fold max negInf (fun l : Fin 4096 => score Q D b q l)

/-- Token `l` of document tile `j`, as a token of the document. -/
def tileIdx (j : Fin 2) (l : Fin 2048) : Fin 4096 := ⟨2048 * j.val + l.val, by have := j.isLt; have := l.isLt; omega⟩

theorem tileIdx_val (j : Fin 2) (l : Fin 2048) : (tileIdx j l).val = 2048 * j.val + l.val := rfl

/-- Every document token lies in the first or in the second tile. -/
theorem tiles_cover (i : Fin 4096) : (∃ l, tileIdx 0 l = i) ∨ (∃ l, tileIdx 1 l = i) := by
  by_cases h : i.val < 2048
  · exact Or.inl ⟨⟨i.val, h⟩, Fin.ext (by rw [tileIdx_val]; simp)⟩
  · exact Or.inr ⟨⟨i.val - 2048, by have := i.isLt; omega⟩, Fin.ext (by rw [tileIdx_val]; simp; omega)⟩

/-- Row `r` of batch tile `bi` (eight rows to a tile), as a batch entry. -/
def rowIdx (bi : Fin 8) (r : Fin 8) : Fin 64 := ⟨8 * bi.val + r.val, by have := bi.isLt; have := r.isLt; omega⟩

theorem rowIdx_val (bi : Fin 8) (r : Fin 8) : (rowIdx bi r).val = 8 * bi.val + r.val := rfl

/-- THE TWO-TILE FORM: the running maximum started at `−∞`, fed the first tile's best similarity and then the second's,
    summed over the query tokens, is the result. -/
theorem maxSim_two_tiles (Q : SQ.Idx → EReal) (D : SD.Idx → EReal) (b : Fin 64) :
    (∑ q : Fin 32, max (max negInf (Finset.univ.fold max negInf (fun l : Fin 2048 => score Q D b q (tileIdx 0 l))))
        (Finset.univ.fold max negInf (fun l : Fin 2048 => score Q D b q (tileIdx 1 l))))
      = maxSim Q D b :=
  Finset.sum_congr rfl fun q _ =>
    Cert.LibTileMax.fold_max_two_tiles negInf (fun l : Fin 4096 => score Q D b q l) (tileIdx 0) (tileIdx 1) tiles_cover

end MaxSim

end
-- ==== Proof.RefValue.lean ====
/-
  The reference computes the late-interaction score.

  The reference's three stages are a batched product over the feature axis (the similarities `score b q l`), a maximum
  over the document axis folded from `−∞`, and a sum over the query axis started from zero.  Read at batch entry `b`
  they are `0 + Σ_q max_l score b q l`, and the leading zero changes nothing.
-/
import proofs.«116367_j15006615733213_2_alg».proof.Proof.Gen.ReferenceIdeal.Read
import proofs.«116367_j15006615733213_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx MaxSim

/-- The document axis is the one axis the maximum removes. -/
theorem hred : S64x32x4096.Reduces [2] S64x32 := by decide

/-- The maximum stage at `(b, q)`: the best similarity of query token `q` over the whole document. -/
theorem val_main_v1_apply (x0 : SQ.Idx → EReal) (x1 : SD.Idx → EReal) (b : Fin 64) (q : Fin 32) :
    val_main_v1 (F := Ideal) x0 x1 (ix2 b q)
      = Finset.univ.fold max negInf (fun l : Fin 4096 => score x0 x1 b q l) := by
  unfold val_main_v1
  rw [Host.reduce_eq_fold_single FloatOps.maximumf _ _ reducesTo_S64x32x4096_S64x32_d2 hred h_S_ (ix2 b q)]
  show Finset.univ.fold max negInf (fun l : Fin 4096 => val_main_v0 (F := Ideal) x0 x1 (hred.lift (ix2 b q) l)) = _
  refine congrArg (Finset.univ.fold max negInf) (funext fun l => ?_)
  rw [val_main_v0_apply]
  unfold score
  refine Finset.sum_congr rfl fun k _ => ?_
  have el : lidx_main_v0 (hred.lift (ix2 b q) l) k = ix3 b q k :=
    funext fun a => Fin.ext (by match a with | ⟨0, _⟩ => rfl | ⟨1, _⟩ => rfl | ⟨2, _⟩ => rfl)
  have er : ridx_main_v0 (hred.lift (ix2 b q) l) k = ix3 b l k :=
    funext fun a => Fin.ext (by match a with | ⟨0, _⟩ => rfl | ⟨1, _⟩ => rfl | ⟨2, _⟩ => rfl)
  rw [el, er]

/-- THE REFERENCE'S RESULT at batch entry `b` is the late-interaction score of `b`. -/
theorem val_main_v2_apply' (x0 : SQ.Idx → EReal) (x1 : SD.Idx → EReal) (b : Fin 64) :
    val_main_v2 (F := Ideal) x0 x1 (ix1 b) = maxSim x0 x1 b := by
  rw [val_main_v2_apply]
  have e0 : (val_main_cst_0 (F := Ideal)) (Shape.Idx.first h_S_) = 0 := Ideal.ofBits_zero_f32
  rw [e0, zero_add]
  unfold maxSim
  refine Finset.sum_congr rfl fun q _ => ?_
  have ei : idx_main_v2 (ix1 b) q = ix2 b q :=
    funext fun a => Fin.ext (by match a with | ⟨0, _⟩ => rfl | ⟨1, _⟩ => rfl)
  rw [ei, val_main_v1_apply]

/-- The same as an equation of vectors over the 64 batch entries. -/
theorem val_main_v2_eq_maxSim (x0 : SQ.Idx → EReal) (x1 : SD.Idx → EReal) :
    val_main_v2 (F := Ideal) x0 x1 = fun i => maxSim x0 x1 (i 0) := by
  funext i
  obtain ⟨b, rfl⟩ : ∃ b : Fin 64, i = ix1 b := ⟨i 0, eq_ix1 i⟩
  exact val_main_v2_apply' x0 x1 b

end Cert.ReferenceIdeal.RefValue

end
-- ==== Proof.LibStoreThenLoad.lean ====
/-
  A whole-buffer load after whole-buffer stores.

  When a buffer has been stored into several times and the LAST store covered the whole buffer, a load of the whole
  buffer reads that last store's value, whatever the earlier stores were.  (The library states this for a single store;
  a running value that is reset and then updated within one body is stored twice before it is read back.)
-/
import Idealize.ShloMosaic.Lib.Pipeline.Value

noncomputable section

namespace Cert.LibStoreThenLoad

open Idealize.ShloMosaic

/-- A load of a whole buffer after stores of which the last covered the whole buffer reads that last store's value. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.LibStoreThenLoad

end
-- ==== Proof.Pieces.lean ====
/-
  What one grid point's body leaves behind, as values.

  The body runs in one of two ways.  At the first document tile of a batch tile it resets the running maximum to
  `−∞`, stages the query block, and then does what every point does: it multiplies the staged query block into the
  document tile, takes each row's maximum over the tile's tokens, raises the running maximum by it, and writes the row
  sums of the running maximum, spread over the lanes, to the output block.  At a later tile it only does the common
  part, on the running maximum and the staged query block carried over from the point before.  Each statement below
  names what is left in one buffer as the body's arithmetic applied to what the point was given.
-/
import proofs.«116367_j15006615733213_2_alg».proof.Proof.Gen.KernelIdeal.Frame
import proofs.«116367_j15006615733213_2_alg».proof.Proof.LibStoreThenLoad
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ### The first document tile of a batch tile: everything is set afresh -/

/-- The staged query block is the query block narrowed (a change of format only). -/
theorem staged_first (c : Dev nD) (i : grid0.Coords) (arg2 : Memref sig .tc .vmem S8x32x128 .f32) (harg2 : arg2.IsWhole) (arg3 : Memref sig .tc .vmem S8x2048x128 .f32) (harg3 : arg3.IsWhole) (arg4 : Memref sig .tc .vmem S8x128 .f32) (harg4 : arg4.IsWhole) (arg5 : Memref sig .tc .vmem S8x32 .f32) (harg5 : arg5.IsWhole) (arg6 : Memref sig .tc .vmem S8x32x128 .bf16) (harg6 : arg6.IsWhole) (hc0 : cond0_0 i)
    (x0 : Vec F S8x32x128 .f32) (x1 : Vec F S8x2048x128 .f32) :
    sout0_A_1 c i arg2 harg2 arg3 harg3 arg4 harg4 arg5 harg5 arg6 harg6 hc0 x0 x1 = k0_pay2 x0 := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_words
  rw [View.canon_unit_zero (S := S8x32x128) hz3]
  simp only [View.readAt_eq_ld, harg2.read_unread, View.ld_unit_zero (S := S8x32x128) hz3]

/-- The running maximum is the reset value updated by this tile's best similarities. -/
theorem running_first (c : Dev nD) (i : grid0.Coords) (arg2 : Memref sig .tc .vmem S8x32x128 .f32) (harg2 : arg2.IsWhole) (arg3 : Memref sig .tc .vmem S8x2048x128 .f32) (harg3 : arg3.IsWhole) (arg4 : Memref sig .tc .vmem S8x128 .f32) (harg4 : arg4.IsWhole) (arg5 : Memref sig .tc .vmem S8x32 .f32) (harg5 : arg5.IsWhole) (arg6 : Memref sig .tc .vmem S8x32x128 .bf16) (harg6 : arg6.IsWhole) (hc0 : cond0_0 i)
    (x0 : Vec F S8x32x128 .f32) (x1 : Vec F S8x2048x128 .f32) :
    sout0_A_0 c i arg2 harg2 arg3 harg3 arg4 harg4 arg5 harg5 arg6 harg6 hc0 x0 x1 = k0_pay3 (k0_pay2 x0) x1 k0_pay1 := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_cons_unit_zero (S := S8x32) hz2, View.readCov_unit_zero (S := S8x32x128) _ hz3,
    View.readCov_unit_zero (S := S8x32) _ hz2]
  simp only [View.readAt_eq_ld, harg2.read_unread, harg3.read_unread, View.ld_unit_zero (S := S8x32x128) hz3,
    View.ld_unit_zero (S := S8x2048x128) hz3]

/-- The output block is the row sums of that running maximum, spread over the lanes. -/
theorem out_first (c : Dev nD) (i : grid0.Coords) (arg2 : Memref sig .tc .vmem S8x32x128 .f32) (harg2 : arg2.IsWhole) (arg3 : Memref sig .tc .vmem S8x2048x128 .f32) (harg3 : arg3.IsWhole) (arg4 : Memref sig .tc .vmem S8x128 .f32) (harg4 : arg4.IsWhole) (arg5 : Memref sig .tc .vmem S8x32 .f32) (harg5 : arg5.IsWhole) (arg6 : Memref sig .tc .vmem S8x32x128 .bf16) (harg6 : arg6.IsWhole) (hc0 : cond0_0 i)
    (x0 : Vec F S8x32x128 .f32) (x1 : Vec F S8x2048x128 .f32) :
    out0_A_2 c i arg2 harg2 arg3 harg3 arg4 harg4 arg5 harg5 arg6 harg6 hc0 x0 x1 = k0_pay4 (k0_pay3 (k0_pay2 x0) x1 k0_pay1) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero (S := S8x128) hz2, Cert.LibStoreThenLoad.readCov_cons_whole (S := S8x32) _ hz2,
    View.readCov_unit_zero (S := S8x32x128) _ hz3, View.readCov_unit_zero (S := S8x32) _ hz2]
  simp only [View.readAt_eq_ld, harg2.read_unread, harg3.read_unread, View.ld_unit_zero (S := S8x32x128) hz3,
    View.ld_unit_zero (S := S8x2048x128) hz3]

/-! ### A later document tile: the carried values are taken up -/

/-- The running maximum is the carried one updated by this tile's best similarities, against the carried query block. -/
theorem running_later (c : Dev nD) (i : grid0.Coords) (arg2 : Memref sig .tc .vmem S8x32x128 .f32) (harg2 : arg2.IsWhole) (arg3 : Memref sig .tc .vmem S8x2048x128 .f32) (harg3 : arg3.IsWhole) (arg4 : Memref sig .tc .vmem S8x128 .f32) (harg4 : arg4.IsWhole) (arg5 : Memref sig .tc .vmem S8x32 .f32) (harg5 : arg5.IsWhole) (arg6 : Memref sig .tc .vmem S8x32x128 .bf16) (harg6 : arg6.IsWhole) (hc0 : ¬cond0_0 i)
    (x0 : Vec F S8x32x128 .f32) (x1 : Vec F S8x2048x128 .f32) (xs0 : Vec F S8x32 .f32) (xs1 : Vec F S8x32x128 .bf16) :
    sout0_B_0 c i arg2 harg2 arg3 harg3 arg4 harg4 arg5 harg5 arg6 harg6 hc0 x0 x1 xs0 xs1 = k0_pay3 xs1 x1 xs0 := by
  unfold sout0_B_0
  rw [View.read_writes_eq_canon _ _ _ (scover0_B_0 c i arg2 harg2 arg3 harg3 arg4 harg4 arg5 harg5 arg6 harg6 hc0 x0 x1 xs0 xs1)]
  unfold kernelRun0_B
  dsimp only
  sl_unfold_words
  rw [View.canon_unit_zero (S := S8x32) hz2]
  simp only [View.readAt_eq_ld, harg3.read_unread, harg5.read_unread, harg6.read_unread,
    View.ld_unit_zero (S := S8x32x128) hz3, View.ld_unit_zero (S := S8x2048x128) hz3, View.ld_unit_zero (S := S8x32) hz2]

/-- The output block is the row sums of that running maximum, spread over the lanes. -/
theorem out_later (c : Dev nD) (i : grid0.Coords) (arg2 : Memref sig .tc .vmem S8x32x128 .f32) (harg2 : arg2.IsWhole) (arg3 : Memref sig .tc .vmem S8x2048x128 .f32) (harg3 : arg3.IsWhole) (arg4 : Memref sig .tc .vmem S8x128 .f32) (harg4 : arg4.IsWhole) (arg5 : Memref sig .tc .vmem S8x32 .f32) (harg5 : arg5.IsWhole) (arg6 : Memref sig .tc .vmem S8x32x128 .bf16) (harg6 : arg6.IsWhole) (hc0 : ¬cond0_0 i)
    (x0 : Vec F S8x32x128 .f32) (x1 : Vec F S8x2048x128 .f32) (xs0 : Vec F S8x32 .f32) (xs1 : Vec F S8x32x128 .bf16) :
    out0_B_2 c i arg2 harg2 arg3 harg3 arg4 harg4 arg5 harg5 arg6 harg6 hc0 x0 x1 xs0 xs1 = k0_pay4 (k0_pay3 xs1 x1 xs0) := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  sl_unfold_words
  rw [View.canon_unit_zero (S := S8x128) hz2, View.readCov_unit_zero (S := S8x32) _ hz2]
  simp only [View.readAt_eq_ld, harg3.read_unread, harg5.read_unread, harg6.read_unread,
    View.ld_unit_zero (S := S8x32x128) hz3, View.ld_unit_zero (S := S8x2048x128) hz3, View.ld_unit_zero (S := S8x32) hz2]

end Cert.KernelIdeal.Pieces

end
-- ==== Proof.LibMatmulBatchNT.lean ====
/-
  A batched matrix product whose two operands are contracted along their LAST axes
  (`einsum('bid,bjd->bij')`), read at one entry.

  Operands `[B, M, K]` and `[B, N, K]`, result `[B, M, N]`: the batch axis is axis 0 of both, the free axes are
  axis 1 of each, the contracted axes are axis 2 of each.  At the ideal values the product into a zero
  accumulator, read at `(b, i, j)`, is the sum over `k : Fin K` of `lhs (b, i, k) · rhs (b, j, k)`.
-/
import Idealize.ShloMosaic.PureOps.Ideal.Laws
import Idealize.ShloMosaic.Lib.ValueIdx

noncomputable section

open scoped BigOperators

namespace Cert.LibMatmulBatchNT

open Idealize.ShloMosaic Idealize.ShloMosaic.ValueIdx

variable {B M N K : Nat} {φ₁ φ₂ : FTy}

/-- Of three axes, axis 1 is not the batch axis 0. -/
private theorem one_not_mem_zero : (1 : Fin 3) ∉ ([0] : List (Fin 3)) := by decide

/-- One contracted axis: the contraction shape has rank one. -/
theorem contr_rank (d : DotDims ⟨3, ![B, M, K]⟩ ⟨3, ![B, N, K]⟩ ⟨3, ![B, M, N]⟩) (hlc : d.lhsContracting = [2]) :
    d.contr.rank = 1 := by
  rw [d.rank_contr, hlc]; rfl

/-- Its one extent is the operands' last. -/
theorem contr_size (d : DotDims ⟨3, ![B, M, K]⟩ ⟨3, ![B, N, K]⟩ ⟨3, ![B, M, N]⟩) (hlc : d.lhsContracting = [2]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-3 index read at a position known to be the first is its first coordinate. -/
theorem ix3_val_zero {n0 n1 n2 : Nat} (a : Fin n0) (b : Fin n1) (c : Fin n2) (p : Nat) (hp : p < 3) (h : p = 0) :
    (ix3 a b c ⟨p, hp⟩).val = a.val := by subst h; rfl
/-- At a position known to be the second, its second coordinate. -/
theorem ix3_val_one {n0 n1 n2 : Nat} (a : Fin n0) (b : Fin n1) (c : Fin n2) (p : Nat) (hp : p < 3) (h : p = 1) :
    (ix3 a b c ⟨p, hp⟩).val = b.val := by subst h; rfl
/-- At a position known to be the third, its third coordinate. -/
theorem ix3_val_two {n0 n1 n2 : Nat} (a : Fin n0) (b : Fin n1) (c : Fin n2) (p : Nat) (hp : p < 3) (h : p = 2) :
    (ix3 a b c ⟨p, hp⟩).val = c.val := by subst h; rfl

/-- The left operand's index at output `(b, i, j)` and contraction position `k` is `(b, i, k)`. -/
theorem lhsIdx_eq (d : DotDims ⟨3, ![B, M, K]⟩ ⟨3, ![B, N, K]⟩ ⟨3, ![B, M, N]⟩)
    (hlc : d.lhsContracting = [2]) (hln : d.lhsNonContracting = [1]) (hlb : d.lhsBatch = [0])
    (b : Fin B) (i : Fin M) (j : Fin N) (k : Fin K) :
    d.lhsIdx (ix3 b i j) ((contrEquiv1 d K (contr_rank d hlc) (contr_size d hlc)).symm k) = ix3 b i k := by
  funext c
  apply Fin.ext
  match c with
  | ⟨0, _⟩ =>
    show (d.lhsIdx (ix3 b i j) _ (0 : Fin 3)).val = b.val
    have hb : (0 : Fin 3) ∈ d.lhsBatch := by rw [hlb]; exact List.mem_singleton.mpr rfl
    unfold DotDims.lhsIdx
    rw [dif_pos hb]
    simp only [Fin.val_cast]
    exact ix3_val_zero b i j _ _ (by simp [hlb])
  | ⟨1, _⟩ =>
    show (d.lhsIdx (ix3 b i j) _ (1 : Fin 3)).val = i.val
    have hnb : (1 : Fin 3) ∉ d.lhsBatch := by rw [hlb]; exact one_not_mem_zero
    have hn : (1 : Fin 3) ∈ d.lhsNonContracting := by rw [hln]; exact List.mem_singleton.mpr rfl
    unfold DotDims.lhsIdx
    rw [dif_neg hnb, dif_pos hn]
    simp only [Fin.val_cast]
    exact ix3_val_one b i j _ _ (by simp [hlb, hln])
  | ⟨2, _⟩ =>
    show (d.lhsIdx (ix3 b i j) _ (2 : Fin 3)).val = k.val
    rw [DotDims.lhsIdx_val_of_single d hlc]
    exact contrEquiv1_symm_val d K (contr_rank d hlc) (contr_size d hlc) k

/-- The right operand's index there is `(b, j, k)`. -/
theorem rhsIdx_eq (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (b : Fin B) (i : Fin M) (j : Fin N) (k : Fin K) :
    d.rhsIdx (ix3 b i j) ((contrEquiv1 d K (contr_rank d hlc) (contr_size d hlc)).symm k) = ix3 b j k := by
  funext c
  apply Fin.ext
  match c with
  | ⟨0, _⟩ =>
    show (d.rhsIdx (ix3 b i j) _ (0 : Fin 3)).val = b.val
    have hb : (0 : Fin 3) ∈ d.rhsBatch := by rw [hrb]; exact List.mem_singleton.mpr rfl
    unfold DotDims.rhsIdx
    rw [dif_pos hb]
    simp only [Fin.val_cast]
    exact ix3_val_zero b i j _ _ (by simp [hrb])
  | ⟨1, _⟩ =>
    show (d.rhsIdx (ix3 b i j) _ (1 : Fin 3)).val = j.val
    have hnb : (1 : Fin 3) ∉ d.rhsBatch := by rw [hrb]; exact one_not_mem_zero
    have hn : (1 : Fin 3) ∈ d.rhsNonContracting := by rw [hrn]; exact List.mem_singleton.mpr rfl
    unfold DotDims.rhsIdx
    rw [dif_neg hnb, dif_pos hn]
    simp only [Fin.val_cast]
    exact ix3_val_two b i j _ _ (by simp [hlb, hln, hrn])
  | ⟨2, _⟩ =>
    show (d.rhsIdx (ix3 b i j) _ (2 : Fin 3)).val = k.val
    rw [DotDims.rhsIdx_val_of_single d hrc]
    exact contrEquiv1_symm_val d K (contr_rank d hlc) (contr_size d hlc) k

/-- THE BATCHED PRODUCT into the zero accumulator, read at `(b, i, j)`. -/
theorem matmul_zero_apply (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision)
    (lhs : FVec Ideal ⟨3, ![B, M, K]⟩ φ₁) (rhs : FVec Ideal ⟨3, ![B, N, K]⟩ φ₂) (b : Fin B) (i : Fin M) (j : Fin N) :
    FloatOps.matmul d prec lhs rhs (constant (F := Ideal) ⟨3, ![B, M, N]⟩ .f32 0x00000000#32) (ix3 b i j)
      = ∑ k : Fin K, lhs (ix3 b i k) * rhs (ix3 b j k) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb b i j k, rhsIdx_eq d hlc hrc hln hrn hlb hrb b i j k]

/-- The same for the product written with the vector operation `matmul`, as a printed kernel body applies it. -/
theorem matmul_zero_apply' (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision)
    (lhs : FVec Ideal ⟨3, ![B, M, K]⟩ φ₁) (rhs : FVec Ideal ⟨3, ![B, N, K]⟩ φ₂) (b : Fin B) (i : Fin M) (j : Fin N) :
    matmul d prec lhs rhs (constant (F := Ideal) ⟨3, ![B, M, N]⟩ .f32 0x00000000#32) (ix3 b i j)
      = ∑ k : Fin K, lhs (ix3 b i k) * rhs (ix3 b j k) :=
  matmul_zero_apply d hlc hrc hln hrn hlb hrb prec lhs rhs b i j

end Cert.LibMatmulBatchNT

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.Payload.lean ====
/-
  The body's arithmetic read entry by entry, over the extended reals.

  * The reset value is `−∞` at every entry, and staging the query block changes its format only.
  * The update of the running maximum at `(r, q)`: the larger of the old value there and the best, over the tile's 2048
    tokens `l`, of the inner product `Σ_k A(r,q,k) · B(r,l,k)` of the staged query block `A` and the document tile `B`.
  * The output block at `(r, lane)`: the sum over the 32 query tokens of the running maximum's row `r`, whatever the lane.

  Put together for the two tiles of one batch tile, the output block's row `r` holds the late-interaction score of
  batch entry `8·bi + r` (`two_points_apply`).
-/
import proofs.«116367_j15006615733213_2_alg».proof.Proof.Gen.KernelIdeal.Skeleton
import proofs.«116367_j15006615733213_2_alg».proof.Proof.Spec
import proofs.«116367_j15006615733213_2_alg».proof.Proof.LibMatmulBatchNT
import proofs.«116367_j15006615733213_2_alg».proof.Proof.LibColumnForms
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx MaxSim

/-- The reset value of the running maximum is `−∞` everywhere. -/
theorem reset_apply (r : Fin 8) (q : Fin 32) : k0_pay1 (F := Ideal) (ix2 r q) = negInf := by
  unfold k0_pay1
  exact congrFun (shapeCast_self _ _) _

/-- Staging the query block keeps every entry. -/
theorem staged_apply (x : Vec Ideal S8x32x128 .f32) (r : Fin 8) (q : Fin 32) (k : Fin 128) :
    k0_pay2 (F := Ideal) x (ix3 r q k) = x (ix3 r q k) := by
  unfold k0_pay2
  exact congrFun (shapeCast_self _ _) _

/-- The updated running maximum at `(r, q)`. -/
theorem update_apply (A : Vec Ideal S8x32x128 .bf16) (B : Vec Ideal S8x2048x128 .f32) (old : Vec Ideal S8x32 .f32)
    (r : Fin 8) (q : Fin 32) :
    k0_pay3 (F := Ideal) A B old (ix2 r q)
      = max (old (ix2 r q)) (Finset.univ.fold max negInf (fun l : Fin 2048 => ∑ k : Fin 128, A (ix3 r q k) * B (ix3 r l k))) := by
  unfold k0_pay3
  refine (congrFun (shapeCast_self _ _) _).trans ?_
  refine (maximumf_apply _ _ _).trans ?_
  refine congrArg (max (old (ix2 r q))) ?_
  refine (Ideal.multiReduction_maximumf_single _ _ reduces_S8x32x2048_S8x32 _ _ (ix2 r q)).trans ?_
  refine congrArg (Finset.univ.fold max negInf) (funext fun l => ?_)
  have e : reduces_S8x32x2048_S8x32.lift (ix2 r q) l = ix3 r q l :=
    funext fun a => Fin.ext (by match a with | ⟨0, _⟩ => rfl | ⟨1, _⟩ => rfl | ⟨2, _⟩ => rfl)
  show matmul dot_S8x32x128_S8x2048x128_S8x32x2048_2_2_1_1_0_0 none A (truncf .bf16 B bitsLt_bf16_f32)
      (constant (F := Ideal) S8x32x2048 .f32 0x00000000#32) (reduces_S8x32x2048_S8x32.lift (ix2 r q) l) = _
  rw [e]
  exact Cert.LibMatmulBatchNT.matmul_zero_apply' dot_S8x32x128_S8x2048x128_S8x32x2048_2_2_1_1_0_0 rfl rfl rfl rfl rfl rfl none A
    (truncf .bf16 B bitsLt_bf16_f32) r q l

/-- The output block at `(r, lane)`: the sum of row `r` of the running maximum. -/
theorem rowsum_apply (v : Vec Ideal S8x32 .f32) (r : Fin 8) (ln : Fin 128) :
    k0_pay4 (F := Ideal) v (ix2 r ln) = ∑ q : Fin 32, v (ix2 r q) := by
  unfold k0_pay4
  refine (Cert.Lib.ColumnForms.broadcastTo_a1_ab_apply _ broadcasts_S8x1_S8x128 r ln).trans ?_
  refine (congrFun (shapeCast_self _ _) _).trans ?_
  refine (Cert.Lib.ColumnForms.shapeCast_a_a1_apply _ shapeCasts_S8_S8x1 r 0).trans ?_
  exact Cert.Lib.ColumnForms.rowSum_apply v reduces_S8x32_S8 _ _ r

/-- What the output block holds after the two points of one batch tile: the first point given the query block `x0` and
    the first document tile `xa`, the second given the second tile `xb` and what the first left behind. -/
def twoPoints (x0 : Vec Ideal S8x32x128 .f32) (xa xb : Vec Ideal S8x2048x128 .f32) : Vec Ideal S8x128 .f32 :=
  k0_pay4 (k0_pay3 (k0_pay2 x0) xb (k0_pay3 (k0_pay2 x0) xa (k0_pay1 (F := Ideal))))

/-- THE BLOCK'S VALUE.  If the three blocks are rows `8·bi …` of the query array `Q` and of the two tiles of the document
    array `D`, then entry `(r, lane)` of the output block is the late-interaction score of batch entry `8·bi + r`. -/
theorem two_points_apply (Q : SQ.Idx → EReal) (D : SD.Idx → EReal) (bi : Fin 8)
    (x0 : Vec Ideal S8x32x128 .f32) (xa xb : Vec Ideal S8x2048x128 .f32)
    (h0 : ∀ (r : Fin 8) (q : Fin 32) (k : Fin 128), x0 (ix3 r q k) = Q (ix3 (rowIdx bi r) q k))
    (ha : ∀ (r : Fin 8) (l : Fin 2048) (k : Fin 128), xa (ix3 r l k) = D (ix3 (rowIdx bi r) (tileIdx 0 l) k))
    (hb : ∀ (r : Fin 8) (l : Fin 2048) (k : Fin 128), xb (ix3 r l k) = D (ix3 (rowIdx bi r) (tileIdx 1 l) k))
    (r : Fin 8) (ln : Fin 128) :
    twoPoints x0 xa xb (ix2 r ln) = maxSim Q D (rowIdx bi r) := by
  unfold twoPoints
  rw [rowsum_apply, ← maxSim_two_tiles]
  refine Finset.sum_congr rfl fun q _ => ?_
  rw [update_apply, update_apply, reset_apply]
  have ea : (fun l : Fin 2048 => ∑ k : Fin 128, k0_pay2 (F := Ideal) x0 (ix3 r q k) * xa (ix3 r l k))
      = fun l : Fin 2048 => score Q D (rowIdx bi r) q (tileIdx 0 l) :=
    funext fun l => Finset.sum_congr rfl fun k _ => by rw [staged_apply, h0, ha]
  have eb : (fun l : Fin 2048 => ∑ k : Fin 128, k0_pay2 (F := Ideal) x0 (ix3 r q k) * xb (ix3 r l k))
      = fun l : Fin 2048 => score Q D (rowIdx bi r) q (tileIdx 1 l) :=
    funext fun l => Finset.sum_congr rfl fun k _ => by rw [staged_apply, h0, hb]
  rw [ea, eb]

end Cert.KernelIdeal.Payload

end
-- ==== Proof.KernelValue.lean ====
/-
  The kernel's result, read off its run.

  The grid has sixteen points: point `t` works on batch tile `t / 2` (eight batch entries) and document tile `t % 2`
  (2048 tokens).  An even point starts a batch tile afresh; the odd point after it takes up what the even point left —
  the running maximum and the staged query block — and its output block is the one written back.  So the block written
  back at an odd point `t` holds, in every lane of row `r`, the late-interaction score of batch entry `8·(t/2) + r`:
  the query block and the two document tiles the two points were given are rows `8·(t/2) …` of the argument arrays.
  The eight written blocks tile the padded `[64, 128]` output, which therefore ends holding the score of `b` in every
  lane of row `b`; the host then keeps lane 0 of each row.
-/
import proofs.«116367_j15006615733213_2_alg».proof.Proof.Pieces
import proofs.«116367_j15006615733213_2_alg».proof.Proof.Payload
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx MaxSim Cert.KernelIdeal.Payload

variable (m : (ℓ : Loc nD τ sig) → Buf (Elt Ideal) ℓ) (ρ : Dev nD → PrngReg)

/-- The two argument arrays as the run finds them. -/
abbrev Qa (c : Dev nD) : SQ.Idx → EReal := m ((c : Thread nD τ).loc main_arg0)
abbrev Da (c : Dev nD) : SD.Idx → EReal := m ((c : Thread nD τ).loc main_arg1)

/-! ## Where the windows' blocks sit -/

/-- The printed index maps over the grid: the query window follows the batch tile only, the document window the batch
    tile and the document tile, the output window the batch tile only. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 2) = t.val / 2 ∧ win0_2.index t (1 : Fin 2) = 0 :=
  (by decide +kernel : ∀ t : Fin grid0.N, _)

/-- The query block at point `t` is rows `8·(t/2) …` of the query array. -/
theorem qblock_apply (c : Dev nD) (t : Fin cfg0.N) (bi : Fin 8) (hbi : t.val / 2 = bi.val) (r : Fin 8) (q : Fin 32) (k : Fin 128) :
    (iblk m c 0 t : Vec Ideal S8x32x128 .f32) (ix3 r q k) = Qa m c (ix3 (rowIdx bi r) q k) := by
  obtain ⟨e0, e1, e2, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 3) * 8 + 1 * r.val = 8 * bi.val + r.val; rw [e0, hbi]; omega
  | ⟨1, _⟩ => show win0_0.index t (1 : Fin 3) * 32 + 1 * q.val = q.val; rw [e1]; omega
  | ⟨2, _⟩ => show win0_0.index t (2 : Fin 3) * 128 + 1 * k.val = k.val; rw [e2]; omega

/-- The document block at point `t` is rows `8·(t/2) …`, tokens `2048·(t%2) …` of the document array. -/
theorem dblock_apply (c : Dev nD) (t : Fin cfg0.N) (bi : Fin 8) (j : Fin 2) (hbi : t.val / 2 = bi.val) (hj : t.val % 2 = j.val)
    (r : Fin 8) (l : Fin 2048) (k : Fin 128) :
    (iblk m c 1 t : Vec Ideal S8x2048x128 .f32) (ix3 r l k) = Da m c (ix3 (rowIdx bi r) (tileIdx j l) k) := by
  obtain ⟨-, -, -, e0, e1, e2, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 3) * 8 + 1 * r.val = 8 * bi.val + r.val; rw [e0, hbi]; omega
  | ⟨1, _⟩ => show win0_1.index t (1 : Fin 3) * 2048 + 1 * l.val = 2048 * j.val + l.val; rw [e1, hj]; omega
  | ⟨2, _⟩ => show win0_1.index t (2 : Fin 3) * 128 + 1 * k.val = k.val; rw [e2]; omega

/-! ## What the points leave -/

/-- An even point leaves the three buffers at the body's arithmetic of its own two blocks. -/
theorem outs_even (c : Dev nD) (t : Fin cfg0.N) (h0 : t.val % 2 = 0) :
    outsAt0 m c t.val t.isLt
      = (k0_pay4 (k0_pay3 (k0_pay2 (iblk m c 0 t)) (iblk m c 1 t) (k0_pay1 (F := Ideal))),
         k0_pay3 (k0_pay2 (iblk m c 0 t)) (iblk m c 1 t) (k0_pay1 (F := Ideal)),
         k0_pay2 (iblk m c 0 t)) := by
  rw [outsAt0_A m c t h0]
  exact congrArg₂ Prod.mk (Cert.KernelIdeal.Pieces.out_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t))
    (congrArg₂ Prod.mk (Cert.KernelIdeal.Pieces.running_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t))
      (Cert.KernelIdeal.Pieces.staged_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)))

/-- An odd point's output block: the body's arithmetic of its document block and of what the point before left. -/
theorem outs_odd_step (c : Dev nD) (t : Fin cfg0.N) (h1 : ¬t.val % 2 = 0) :
    (outsAt0 m c t.val t.isLt).1
      = k0_pay4 (k0_pay3 (outsAt0 m c (t.val - 1) (Nat.lt_of_le_of_lt (Nat.sub_le _ _) t.isLt)).2.2 (iblk m c 1 t)
          (outsAt0 m c (t.val - 1) (Nat.lt_of_le_of_lt (Nat.sub_le _ _) t.isLt)).2.1) := by
  rw [outsAt0_B m c t h1]
  exact Cert.KernelIdeal.Pieces.out_later (F := Ideal) c (grid0.coords t) (ms0_0 t) (hs0_0 t) (ms0_1 t) (hs0_1 t) (ms0_2 t) (hs0_2 t) scM0_0 (Memref.isWhole_whole _) scM0_1 (Memref.isWhole_whole _) (fun h => h1 ((hcond0_0 t).mp h)) (iblk m c 0 t) (iblk m c 1 t)
    (outsAt0 m c (t.val - 1) (Nat.lt_of_le_of_lt (Nat.sub_le _ _) t.isLt)).2.1
    (outsAt0 m c (t.val - 1) (Nat.lt_of_le_of_lt (Nat.sub_le _ _) t.isLt)).2.2

/-- So an odd point's output block is the two points' arithmetic of the batch tile's three blocks. -/
theorem outs_odd (c : Dev nD) (t t' : Fin cfg0.N) (h1 : t.val % 2 = 1) (ht' : t'.val = t.val - 1) :
    (outsAt0 m c t.val t.isLt).1 = twoPoints (iblk m c 0 t') (iblk m c 1 t') (iblk m c 1 t) := by
  have hA : t'.val % 2 = 0 := by omega
  rw [outs_odd_step m c t (by omega)]
  have e := outs_even m c t' hA
  obtain ⟨n', hn'⟩ := t'
  dsimp only at ht'
  subst ht'
  rw [e]
  rfl

/-! ## The padded output array -/

/-- What the padded `[64, 128]` output ends holding: in every lane of row `b`, the score of batch entry `b`. -/
def padded (c : Dev nD) : Buf (Elt Ideal) ((c : Thread nD τ).loc main_v0) :=
  fun i => maxSim (Qa m c) (Da m c) (i 0)

/-- WHAT AN ODD POINT WRITES BACK is its block of the padded output. -/
theorem flushed_eq (c : Dev nD) (t : Fin cfg0.N) (hf : (cfg0.win 2).flush t = true) :
    (dats m 0 c).flushed 2 t = ((cfg0.win 2).blk t).view.read (Elt Ideal) (padded m c) := by
  have h1 : t.val % 2 = 1 := (flush0_2 t).mp hf
  have hN : cfg0.N = 16 := N_0
  have hlt : t.val < cfg0.N := t.isLt
  obtain ⟨-, -, -, -, -, -, e0, e1⟩ := idx_facts t
  show (cfg0.win 2).cut (grid0.coords t) ((dats m 0 c).after 2 t) = _
  rw [after0_2, outs_odd m c t ⟨t.val - 1, by omega⟩ h1 rfl]
  funext j
  obtain ⟨r, ln, rfl⟩ : ∃ (r : Fin 8) (ln : Fin 128), j = ix2 r ln := ⟨j 0, j 1, eq_ix2 j⟩
  show twoPoints (iblk m c 0 ⟨t.val - 1, _⟩) (iblk m c 1 ⟨t.val - 1, _⟩) (iblk m c 1 t) (ix2 r ln)
    = padded m c (((cfg0.win 2).blk t).view.emb (ix2 r ln))
  rw [two_points_apply (Qa m c) (Da m c) ⟨t.val / 2, by omega⟩ _ _ _
    (fun r q k => qblock_apply m c ⟨t.val - 1, by omega⟩ ⟨t.val / 2, by omega⟩ (by show (t.val - 1) / 2 = t.val / 2; omega) r q k)
    (fun r l k => dblock_apply m c ⟨t.val - 1, by omega⟩ ⟨t.val / 2, by omega⟩ 0 (by show (t.val - 1) / 2 = t.val / 2; omega)
      (by show (t.val - 1) % 2 = 0; omega) r l k)
    (fun r l k => dblock_apply m c t ⟨t.val / 2, by omega⟩ 1 rfl (by show t.val % 2 = 1; exact h1) r l k)]
  unfold padded
  congr 1
  apply Fin.ext
  show 8 * (t.val / 2) + r.val = win0_2.index t (0 : Fin 2) * 8 + 1 * r.val
  rw [e0]; omega

/-- An index of the padded output is in point `t`'s block iff each coordinate is in the block's range on its axis. -/
theorem mem_blk (t : Fin cfg0.N) (i : S64x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- THE PADDED OUTPUT after the run: row `b` lies in the block written back at the odd point of batch tile `b / 8`. -/
theorem final (c : Dev nD) : (dats m 0 c).arrAt 2 cfg0.N = padded m c :=
  (dats m 0 c).arrAt_eq_of_cover 2 (padded m c) (flushed_eq m c) fun i => by
    have hN : cfg0.N = 16 := N_0
    have h0 : (i 0).val < 64 := (i 0).isLt
    have h1 : (i 1).val < 128 := (i 1).isLt
    have hT : 2 * ((i 0).val / 8) + 1 < cfg0.N := by omega
    obtain ⟨-, -, -, -, -, -, e0, e1⟩ := idx_facts ⟨2 * ((i 0).val / 8) + 1, hT⟩
    refine ⟨⟨2 * ((i 0).val / 8) + 1, hT⟩, (flush0_2 _).mpr (by show (2 * ((i 0).val / 8) + 1) % 2 = 1; omega), ?_⟩
    rw [mem_blk]
    intro a
    match a with
    | ⟨0, _⟩ =>
      show win0_2.index ⟨2 * ((i 0).val / 8) + 1, hT⟩ (0 : Fin 2) * 8 ≤ (i 0).val
        ∧ (i 0).val < win0_2.index ⟨2 * ((i 0).val / 8) + 1, hT⟩ (0 : Fin 2) * 8 + 8
      rw [e0]; dsimp only; omega
    | ⟨1, _⟩ =>
      show win0_2.index ⟨2 * ((i 0).val / 8) + 1, hT⟩ (1 : Fin 2) * 128 ≤ (i 1).val
        ∧ (i 1).val < win0_2.index ⟨2 * ((i 0).val / 8) + 1, hT⟩ (1 : Fin 2) * 128 + 128
      rw [e1]; omega

/-! ## The host's last two lines: lane 0 of every row -/

/-- THE RESULT: the vector of the 64 scores. -/
def result (c : Dev nD) : Buf (Elt Ideal) ((c : Thread nD τ).loc main_v2) :=
  fun i => maxSim (Qa m c) (Da m c) (i 0)

/-- The slice of lane 0 and the reshape to a vector, applied to the padded output, give the scores. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [(Pipeline.withArrays_arr spec0 launch0.win.arr_inj c _ _ 2).trans (final m c)]
  funext i
  obtain ⟨b, rfl⟩ : ∃ b : Fin 64, i = ix1 b := ⟨i 0, eq_ix1 i⟩
  refine (shapeCast_apply _ shapeCasts_S64x1_S64 (ix1 b) (ix2 b (0 : Fin 1)) ?_).trans ?_
  · rw [Shape.rowMajor_val_two, Shape.rowMajor_val_one]
    show b.val * 1 + 0 = b.val
    omega
  refine (extractStridedSlice_apply ![0, 0] _ slices_S64x128_S64x1_0_0 (ix2 b (0 : Fin 1)) (ix2 b (0 : Fin 128)) ?_).trans ?_
  · intro a
    match a with
    | ⟨0, _⟩ => show b.val = 0 + b.val; omega
    | ⟨1, _⟩ => rfl
  rfl

/-! ## The run, read -/

/-- The result buffer is no array of the pipeline and is not scoped: the lines after the region leave it. -/
theorem result_mem_rest : main_v2 ∈ Pipeline.restRefs sig (cfgs 0).spec :=
  Pipeline.mem_restRefs_of main_v2 rfl (fun w => by fin_cases w <;> decide)

/-- Every weakly fair execution of the idealized kernel terminates with the result buffer at the scores and the
    arguments as they were. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 result_mem_rest).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.KValue

end
-- ==== Proof.lean ====
/-
  Late-interaction scoring ("MaxSim"): a tiled kernel against its one-line reference, over the extended reals.

  Both programs take a query array `Q : [64, 32, 128]` and a document array `D : [64, 4096, 128]` and return, for each
  of the 64 batch entries `b`, the number  `Σ_q max_l Σ_k Q(b,q,k) · D(b,l,k)`  — for every query token the best inner
  product over the document's tokens, summed over the query tokens.

  The reference computes exactly this: one batched product, a maximum over the document axis folded from `−∞`, a sum
  over the query axis started from zero (Proof/RefValue.lean).

  The kernel walks a grid of 8 batch tiles × 2 document tiles.  At the first document tile of a batch tile it resets a
  running maximum to `−∞` and stages the query block; at both tiles it raises the running maximum by the tile's best
  inner products and writes the row sums of the running maximum to the output block, of which the second tile's
  version is the one that stays.  A maximum over 4096 tokens taken as "−∞, then the first 2048, then the last 2048" is the
  maximum over all of them (Proof/LibTileMax.lean, Proof/Spec.lean), a change of number format is the identity at the ideal
  values, and the products and sums are the same sums on both sides; no law used needs the inputs to be finite.  The
  kernel's padded `[64, 128]` output holds the score of `b` in every lane of row `b`, and the host keeps lane 0
  (Proof/Pieces.lean, Proof/Payload.lean, Proof/KernelValue.lean).

  The three frame claims are the generated frame runs (the reference's is its generated run with the result dropped);
  the idealization rewrote nothing, so `preserves` is trivial.
-/
import proofs.«116367_j15006615733213_2_alg».proof.Defs
import proofs.«116367_j15006615733213_2_alg».proof.Proof.Gen.Kernel
import proofs.«116367_j15006615733213_2_alg».proof.Proof.Gen.Kernel.Skeleton
import proofs.«116367_j15006615733213_2_alg».proof.Proof.Gen.Kernel.Launch
import proofs.«116367_j15006615733213_2_alg».proof.Proof.Gen.Kernel.Points
import proofs.«116367_j15006615733213_2_alg».proof.Proof.Gen.Kernel.Frame
import proofs.«116367_j15006615733213_2_alg».proof.Proof.Gen.KernelIdeal
import proofs.«116367_j15006615733213_2_alg».proof.Proof.Gen.KernelIdeal.Skeleton
import proofs.«116367_j15006615733213_2_alg».proof.Proof.Gen.KernelIdeal.Launch
import proofs.«116367_j15006615733213_2_alg».proof.Proof.Gen.KernelIdeal.Points
import proofs.«116367_j15006615733213_2_alg».proof.Proof.Gen.KernelIdeal.Frame
import proofs.«116367_j15006615733213_2_alg».proof.Proof.Gen.ReferenceIdeal
import proofs.«116367_j15006615733213_2_alg».proof.Proof.Gen.ReferenceIdeal.Run
import proofs.«116367_j15006615733213_2_alg».proof.Proof.Gen.ReferenceIdeal.Read
import proofs.«116367_j15006615733213_2_alg».proof.Proof.Gen.Pre_finite_inputs
import proofs.«116367_j15006615733213_2_alg».proof.Proof.RefValue
import proofs.«116367_j15006615733213_2_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from memories that agree on the two arguments, both programs end with the vector of the
    64 late-interaction scores of those arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.val_main_v2_eq_maxSim,
    (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
